-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x16384x2 : Shape := ⟨3, ![64, 16384, 2]⟩
abbrev S64x16384 : Shape := ⟨2, ![64, 16384]⟩
abbrev S64x2 : Shape := ⟨2, ![64, 2]⟩
abbrev S_ : Shape := ⟨0, ![]⟩

class Facts : Prop where
  bcast_S_S64x16384x2 : S_.BroadcastsInDim S64x16384x2 (![] : Fin 0 → Fin S64x16384x2.rank)
  reducesTo_S64x16384x2_S_d0_1_2 : S64x16384x2.ReducesTo [0, 1, 2] S_
  h_S_ : 0 < S_.numel
  bcast_S_S64x16384 : S_.BroadcastsInDim S64x16384 (![] : Fin 0 → Fin S64x16384.rank)
  reducesTo_S64x16384_S_d0_1 : S64x16384.ReducesTo [0, 1] S_
  bcast_S_S64x2 : S_.BroadcastsInDim S64x2 (![] : Fin 0 → Fin S64x2.rank)
  reducesTo_S64x2_S_d0_1 : S64x2.ReducesTo [0, 1] S_

variable [Facts]

def fn_part1 {F : FTy → Type} [FloatOps F] (main_v13 : IVec S_ 1) (main_v16 : IVec S64x2 1) : IVec S_ 1 :=
  let main_c_5 : IVec S_ 1 := constantI S_ 1 1#1
  let main_v17 : IVec S_ 1 := (fun x v => Host.reduce IntOp.andi x v reducesTo_S64x2_S_d0_1 h_S_) main_v16 main_c_5
  let main_v18 : IVec S_ 1 := andi main_v13 main_v17
  main_v18

def fn {F : FTy → Type} [FloatOps F] (main_arg0 : FVec F S64x16384x2 .f32) (main_arg1 : FVec F S64x16384 .f32) (main_arg2 : FVec F S64x2 .f32) (main_arg3 : FVec F S64x2 .f32) : IVec S_ 1 :=
  let main_v0 : FVec F S64x16384x2 .f32 := Host.absf main_arg0
  let main_cst : FVec F S_ .f32 := constant S_ .f32 0x7F800000#32
  let main_v1 : FVec F S64x16384x2 .f32 := broadcastInDim S64x16384x2 ![] bcast_S_S64x16384x2 main_cst
  let main_v2 : IVec S64x16384x2 1 := cmpf .olt main_v0 main_v1
  let main_c : IVec S_ 1 := constantI S_ 1 1#1
  let main_v3 : IVec S_ 1 := (fun x v => Host.reduce IntOp.andi x v reducesTo_S64x16384x2_S_d0_1_2 h_S_) main_v2 main_c
  let main_v4 : FVec F S64x16384 .f32 := Host.absf main_arg1
  let main_cst_0 : FVec F S_ .f32 := constant S_ .f32 0x7F800000#32
  let main_v5 : FVec F S64x16384 .f32 := broadcastInDim S64x16384 ![] bcast_S_S64x16384 main_cst_0
  let main_v6 : IVec S64x16384 1 := cmpf .olt main_v4 main_v5
  let main_c_1 : IVec S_ 1 := constantI S_ 1 1#1
  let main_v7 : IVec S_ 1 := (fun x v => Host.reduce IntOp.andi x v reducesTo_S64x16384_S_d0_1 h_S_) main_v6 main_c_1
  let main_v8 : IVec S_ 1 := andi main_v3 main_v7
  let main_v9 : FVec F S64x2 .f32 := Host.absf main_arg2
  let main_cst_2 : FVec F S_ .f32 := constant S_ .f32 0x7F800000#32
  let main_v10 : FVec F S64x2 .f32 := broadcastInDim S64x2 ![] bcast_S_S64x2 main_cst_2
  let main_v11 : IVec S64x2 1 := cmpf .olt main_v9 main_v10
  let main_c_3 : IVec S_ 1 := constantI S_ 1 1#1
  let main_v12 : IVec S_ 1 := (fun x v => Host.reduce IntOp.andi x v reducesTo_S64x2_S_d0_1 h_S_) main_v11 main_c_3
  let main_v13 : IVec S_ 1 := andi main_v8 main_v12
  let main_v14 : FVec F S64x2 .f32 := Host.absf main_arg3
  let main_cst_4 : FVec F S_ .f32 := constant S_ .f32 0x7F800000#32
  let main_v15 : FVec F S64x2 .f32 := broadcastInDim S64x2 ![] bcast_S_S64x2 main_cst_4
  let main_v16 : IVec S64x2 1 := cmpf .olt main_v14 main_v15
  fn_part1 (F := F) main_v13 main_v16
-- ==== Kernel.lean ====
abbrev S64x16384x2 : Shape := ⟨3, ![64, 16384, 2]⟩
abbrev S64x16384 : Shape := ⟨2, ![64, 16384]⟩
abbrev S64x2 : Shape := ⟨2, ![64, 2]⟩
abbrev S64x2x16384 : Shape := ⟨3, ![64, 2, 16384]⟩
abbrev S64x1x16384 : Shape := ⟨3, ![64, 1, 16384]⟩
abbrev S_ : Shape := ⟨0, ![]⟩
abbrev S64 : Shape := ⟨1, ![64]⟩
abbrev S64x1 : Shape := ⟨2, ![64, 1]⟩
abbrev S64x1x64 : Shape := ⟨3, ![64, 1, 64]⟩
abbrev S1x2x16384 : Shape := ⟨3, ![1, 2, 16384]⟩
abbrev S1x1x16384 : Shape := ⟨3, ![1, 1, 16384]⟩
abbrev S1x1x64 : Shape := ⟨3, ![1, 1, 64]⟩
abbrev S1x64 : Shape := ⟨2, ![1, 64]⟩
abbrev S1x2x2048 : Shape := ⟨3, ![1, 2, 2048]⟩
abbrev S2x2048 : Shape := ⟨2, ![2, 2048]⟩
abbrev S1x1x2048 : Shape := ⟨3, ![1, 1, 2048]⟩
abbrev S1x2048 : Shape := ⟨2, ![1, 2048]⟩
abbrev S64x2048 : Shape := ⟨2, ![64, 2048]⟩
abbrev S2048 : Shape := ⟨1, ![2048]⟩
abbrev S64x64 : Shape := ⟨2, ![64, 64]⟩

abbrev nBuf : Space → Nat
  | .hbm => 14
  | .vmem => 9
  | .smem => 0
  | _ => 0

abbrev bufTy : (tb : Table) → Fin (tcTables nBuf tb) → BufTy
  | .hbm, ⟨0, _⟩ => ⟨S64x16384x2, .f32⟩
  | .hbm, ⟨1, _⟩ => ⟨S64x16384, .f32⟩
  | .hbm, ⟨2, _⟩ => ⟨S64x2, .f32⟩
  | .hbm, ⟨3, _⟩ => ⟨S64x2, .f32⟩
  | .hbm, ⟨4, _⟩ => ⟨S64x2x16384, .f32⟩
  | .hbm, ⟨5, _⟩ => ⟨S64x1x16384, .f32⟩
  | .hbm, ⟨6, _⟩ => ⟨S64x2, .f32⟩
  | .hbm, ⟨7, _⟩ => ⟨S64x2, .f32⟩
  | .hbm, ⟨8, _⟩ => ⟨S64x2, .f32⟩
  | .hbm, ⟨9, _⟩ => ⟨S_, .f32⟩
  | .hbm, ⟨10, _⟩ => ⟨S64, .f32⟩
  | .hbm, ⟨11, _⟩ => ⟨S64x1, .f32⟩
  | .hbm, ⟨12, _⟩ => ⟨S64x1x64, .f32⟩
  | .hbm, ⟨13, _⟩ => ⟨S64x64, .f32⟩
  | .local _ .vmem, ⟨0, _⟩ => ⟨S1x2x16384, .f32⟩
  | .local _ .vmem, ⟨1, _⟩ => ⟨S1x2x16384, .f32⟩
  | .local _ .vmem, ⟨2, _⟩ => ⟨S1x1x16384, .f32⟩
  | .local _ .vmem, ⟨3, _⟩ => ⟨S1x1x16384, .f32⟩
  | .local _ .vmem, ⟨4, _⟩ => ⟨S64x2, .f32⟩
  | .local _ .vmem, ⟨5, _⟩ => ⟨S64x2, .f32⟩
  | .local _ .vmem, ⟨6, _⟩ => ⟨S64x1, .f32⟩
  | .local _ .vmem, ⟨7, _⟩ => ⟨S1x1x64, .f32⟩
  | .local _ .vmem, ⟨8, _⟩ => ⟨S1x1x64, .f32⟩
  | _, _ => ⟨S64x16384x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c8_i32 : BitVec 32 := 8#32
  let v9 : BitVec 32 := Scalar.addi c0_i32 c8_i32
  let c1_i32 : BitVec 32 := 1#32
  ⟨c0_i32, v9, c1_i32⟩
def k0_mult1 (k0_t1 : Fin k0_t1_loop.trips) : BitVec 32 :=
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v10 : BitVec 32 := Scalar.muli arg7 c1_i32_9
  let v11 : BitVec 32 := Scalar.addi c0_i32_10 v10
  let c2048_i32 : BitVec 32 := 2048#32
  let v12 : BitVec 32 := Scalar.muli v11 c2048_i32
  v12
def k0_off1 (k0_t1 : Fin k0_t1_loop.trips) : Fin 3 → Nat :=
  let c0_11 : Index := 0#32
  let c0_12 : Index := 0#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v10 : BitVec 32 := Scalar.muli arg7 c1_i32_9
  let v11 : BitVec 32 := Scalar.addi c0_i32_10 v10
  let c2048_i32 : BitVec 32 := 2048#32
  let v12 : BitVec 32 := Scalar.muli v11 c2048_i32
  let v13 : BitVec 32 := v12
  let v14 : Index := Scalar.indexCast v13
  ![0, 0, v14.toNat]
def k0_off2 (k0_t1 : Fin k0_t1_loop.trips) : Fin 3 → Nat :=
  let c0_13 : Index := 0#32
  let c0_14 : Index := 0#32
  let c0_i32_10 : BitVec 32 := 0#32
  let c0_i32 : BitVec 32 := 0#32
  let c1_i32 : BitVec 32 := 1#32
  let arg7 : BitVec 32 := Scf.iv c0_i32 c1_i32 k0_t1
  let c1_i32_9 : BitVec 32 := 1#32
  let v10 : BitVec 32 := Scalar.muli arg7 c1_i32_9
  let v11 : BitVec 32 := Scalar.addi c0_i32_10 v10
  let c2048_i32 : BitVec 32 := 2048#32
  let v12 : BitVec 32 := Scalar.muli v11 c2048_i32
  let v13 : BitVec 32 := v12
  let v17 : Index := Scalar.indexCast v13
  ![0, 0, v17.toNat]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x2x16384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x16384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  transposes_S64x16384x2_S64x2x16384_0_2_1 : S64x16384x2.Transposes [0, 2, 1] S64x2x16384
  shapeCasts_S64x16384_S64x1x16384 : S64x16384.ShapeCasts S64x1x16384
  reducesTo_S64x2_S64_d1 : S64x2.ReducesTo [1] S64
  h_S_ : 0 < S_.numel
  bcast_S64_S64x1_0 : S64.BroadcastsInDim S64x1 (![0] : Fin 1 → Fin S64x1.rank)
  inb_S1x1x64_S1x1x64_0_0_0 : ∀ a, (![0, 0, 0] : Fin 3 → Nat) a + S1x1x64.size a ≤ S1x1x64.size a
  h_S1x1x64 : 0 < S1x1x64.numel
  shapeCasts_S1x1x64_S1x64 : S1x1x64.ShapeCasts S1x64
  shapeCasts_S1x64_S1x1x64 : S1x64.ShapeCasts S1x1x64
  inb_S64x2_S64x2_0_0 : ∀ a, (![0, 0] : Fin 2 → Nat) a + S64x2.size a ≤ S64x2.size a
  h_S64x2 : 0 < S64x2.numel
  shapeCasts_S64x2_S64x2 : S64x2.ShapeCasts S64x2
  inb_S64x1_S64x1_0_0 : ∀ a, (![0, 0] : Fin 2 → Nat) a + S64x1.size a ≤ S64x1.size a
  h_S64x1 : 0 < S64x1.numel
  shapeCasts_S64x1_S64x1 : S64x1.ShapeCasts S64x1
  h_S1x2x2048 : 0 < S1x2x2048.numel
  shapeCasts_S1x2x2048_S2x2048 : S1x2x2048.ShapeCasts S2x2048
  h_S1x1x2048 : 0 < S1x1x2048.numel
  shapeCasts_S1x1x2048_S1x2048 : S1x1x2048.ShapeCasts S1x2048
  slices_S2x2048_o0_0_S1x2048 : S2x2048.Slices ![0, 0] S1x2048
  shapeCasts_S1x2048_S2048 : S1x2048.ShapeCasts S2048
  slices_S64x2_o0_0_S64x1 : S64x2.Slices ![0, 0] S64x1
  shapeCasts_S64x1_S64 : S64x1.ShapeCasts S64
  shapeCasts_S64_S64x1 : S64.ShapeCasts S64x1
  shapeCasts_S2048_S1x2048 : S2048.ShapeCasts S1x2048
  broadcasts_S64x1_S64x2048 : S64x1.Broadcasts S64x2048
  broadcasts_S1x2048_S64x2048 : S1x2048.Broadcasts S64x2048
  slices_S2x2048_o1_0_S1x2048 : S2x2048.Slices ![1, 0] S1x2048
  slices_S64x2_o0_1_S64x1 : S64x2.Slices ![0, 1] S64x1
  reduces_S64x2048_S64 : S64x2048.Reduces [1] S64
  shapeCasts_S64_S1x64 : S64.ShapeCasts S1x64
  shapeCasts_S64x1x64_S64x64 : S64x1x64.ShapeCasts S64x64
  hrank0 : 0 < grid0.rank
  k0_t1_ok : k0_t1_loop.OK
  k0_mult1_dvd : ∀ k0_t1 : Fin k0_t1_loop.trips, 2048 ∣ (k0_mult1 k0_t1).toNat
  k0_off1_inb : ∀ k0_t1 : Fin k0_t1_loop.trips, ∀ a, (k0_off1 k0_t1) a + S1x2x2048.size a ≤ S1x2x16384.size a
  k0_off2_inb : ∀ k0_t1 : Fin k0_t1_loop.trips, ∀ a, (k0_off2 k0_t1) a + S1x1x2048.size a ≤ S1x1x16384.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2x16384.size a ≤ S64x2x16384.size a
  hwx0_0 : ∀ i : grid0.Coords, EltTy.bits .f32 = 32 ∨ (Rect.block (s := S64x2x16384) S1x2x16384.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x16384.size a ≤ S64x1x16384.size a
  hwx0_1 : ∀ i : grid0.Coords, EltTy.bits .f32 = 32 ∨ (Rect.block (s := S64x1x16384) S1x1x16384.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x2.size a ≤ S64x2.size a
  hwx0_2 : ∀ i : grid0.Coords, EltTy.bits .f32 = 32 ∨ (Rect.block (s := S64x2) S64x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x2.size a ≤ S64x2.size a
  hwx0_3 : ∀ i : grid0.Coords, EltTy.bits .f32 = 32 ∨ (Rect.block (s := S64x2) S64x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x1.size a ≤ S64x1.size a
  hwx0_4 : ∀ i : grid0.Coords, EltTy.bits .f32 = 32 ∨ (Rect.block (s := S64x1) S64x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x64.size a ≤ S64x1x64.size a
  hwx0_5 : ∀ i : grid0.Coords, EltTy.bits .f32 = 32 ∨ (Rect.block (s := S64x1x64) S1x1x64.size (cc0_transform_5 i) (hinb0_5 i)).WholeWords (EltTy.packing .f32)

variable [Facts₀]

abbrev win0_0 : Pipeline.Window sig grid0 :=
  Pipeline.Window.ofSpec (Memref.whole main_v0) S1x2x16384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x16384.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S64x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S64x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x1x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S64x16384x2 : Shape := ⟨3, ![64, 16384, 2]⟩
abbrev S64x16384 : Shape := ⟨2, ![64, 16384]⟩
abbrev S64x2 : Shape := ⟨2, ![64, 2]⟩
abbrev S1x64x1x2 : Shape := ⟨4, ![1, 64, 1, 2]⟩
abbrev S64x1x16384x2 : Shape := ⟨4, ![64, 1, 16384, 2]⟩
abbrev S64x64x16384x2 : Shape := ⟨4, ![64, 64, 16384, 2]⟩
abbrev S_ : Shape := ⟨0, ![]⟩
abbrev S64x64x16384 : Shape := ⟨3, ![64, 64, 16384]⟩
abbrev S64x1x16384 : Shape := ⟨3, ![64, 1, 16384]⟩
abbrev S64x64 : Shape := ⟨2, ![64, 64]⟩

abbrev nBuf : Space → Nat
  | .hbm => 22
  | .vmem => 0
  | .smem => 0
  | _ => 0

abbrev bufTy : (tb : Table) → Fin (tcTables nBuf tb) → BufTy
  | .hbm, ⟨0, _⟩ => ⟨S64x16384x2, .f32⟩
  | .hbm, ⟨1, _⟩ => ⟨S64x16384, .f32⟩
  | .hbm, ⟨2, _⟩ => ⟨S64x2, .f32⟩
  | .hbm, ⟨3, _⟩ => ⟨S64x2, .f32⟩
  | .hbm, ⟨4, _⟩ => ⟨S1x64x1x2, .f32⟩
  | .hbm, ⟨5, _⟩ => ⟨S64x1x16384x2, .f32⟩
  | .hbm, ⟨6, _⟩ => ⟨S64x64x16384x2, .f32⟩
  | .hbm, ⟨7, _⟩ => ⟨S64x64x16384x2, .f32⟩
  | .hbm, ⟨8, _⟩ => ⟨S64x64x16384x2, .f32⟩
  | .hbm, ⟨9, _⟩ => ⟨S1x64x1x2, .f32⟩
  | .hbm, ⟨10, _⟩ => ⟨S64x64x16384x2, .f32⟩
  | .hbm, ⟨11, _⟩ => ⟨S64x64x16384x2, .f32⟩
  | .hbm, ⟨12, _⟩ => ⟨S64x64x16384x2, .f32⟩
  | .hbm, ⟨13, _⟩ => ⟨S_, .f32⟩
  | .hbm, ⟨14, _⟩ => ⟨S64x64x16384, .f32⟩
  | .hbm, ⟨15, _⟩ => ⟨S64x64x16384, .f32⟩
  | .hbm, ⟨16, _⟩ => ⟨S64x64x16384, .f32⟩
  | .hbm, ⟨17, _⟩ => ⟨S64x1x16384, .f32⟩
  | .hbm, ⟨18, _⟩ => ⟨S64x64x16384, .f32⟩
  | .hbm, ⟨19, _⟩ => ⟨S64x64x16384, .f32⟩
  | .hbm, ⟨20, _⟩ => ⟨S_, .f32⟩
  | .hbm, ⟨21, _⟩ => ⟨S64x64, .f32⟩
  | _, _ => ⟨S64x16384x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_0 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  bcast_S64x2_S1x64x1x2_1_3 : S64x2.BroadcastsInDim S1x64x1x2 (![1, 3] : Fin 2 → Fin S1x64x1x2.rank)
  bcast_S64x16384x2_S64x1x16384x2_0_2_3 : S64x16384x2.BroadcastsInDim S64x1x16384x2 (![0, 2, 3] : Fin 3 → Fin S64x1x16384x2.rank)
  bcast_S1x64x1x2_S64x64x16384x2_0_1_2_3 : S1x64x1x2.BroadcastsInDim S64x64x16384x2 (![0, 1, 2, 3] : Fin 4 → Fin S64x64x16384x2.rank)
  bcast_S64x1x16384x2_S64x64x16384x2_0_1_2_3 : S64x1x16384x2.BroadcastsInDim S64x64x16384x2 (![0, 1, 2, 3] : Fin 4 → Fin S64x64x16384x2.rank)
  reducesTo_S64x64x16384x2_S64x64x16384_d3 : S64x64x16384x2.ReducesTo [3] S64x64x16384
  h_S_ : 0 < S_.numel
  bcast_S64x16384_S64x1x16384_0_2 : S64x16384.BroadcastsInDim S64x1x16384 (![0, 2] : Fin 2 → Fin S64x1x16384.rank)
  bcast_S64x1x16384_S64x64x16384_0_1_2 : S64x1x16384.BroadcastsInDim S64x64x16384 (![0, 1, 2] : Fin 3 → Fin S64x64x16384.rank)
  reducesTo_S64x64x16384_S64x64_d2 : S64x64x16384.ReducesTo [2] S64x64

variable [Facts₀]

class Facts : Prop extends Facts₀ where

variable [Facts]
-- ==== Proof.Blocks.lean ====
/-
  The arrays the pooling kernel's windows find, and its blocks, as entries of the program's four arguments.

  Before the launch the host transposes the points to (batch, coordinate, point), gives the mask a unit middle axis,
  multiplies sharpness by centre, and sums sharpness · centre · centre over the two coordinates into a column. The
  launch has one grid point per batch element `t`: it stages row `t` of the transposed points and of the mask, and the
  three small parameter tables whole. This module reads those host operations at an index and then each staged block at
  an index: every number the body touches at grid point `t` is a named entry of an argument array.
-/
import proofs.«147939_j45200235823404_2_alg».proof.Proof.Gen.KernelIdeal.Frame
import Idealize.ShloMosaic.Lib.StableHlo.Run
import Idealize.ShloMosaic.Lib.ValueIdx
import Idealize.ShloMosaic.Lib.ValueLayout
import Idealize.ShloMosaic.PureOps.Ideal.Laws

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen
open scoped BigOperators

variable (m : (ℓ : Loc nD τ sig) → Buf (Elt Ideal) ℓ)

/-- The program's four arguments on core `c`, as float arrays: points, mask, centres, sharpness. -/
abbrev pts (c : Dev nD) : FVec Ideal S64x16384x2 .f32 := m ((c : Thread nD τ).loc main_arg0)
abbrev msk (c : Dev nD) : FVec Ideal S64x16384 .f32 := m ((c : Thread nD τ).loc main_arg1)
abbrev ctr (c : Dev nD) : FVec Ideal S64x2 .f32 := m ((c : Thread nD τ).loc main_arg2)
abbrev shp (c : Dev nD) : FVec Ideal S64x2 .f32 := m ((c : Thread nD τ).loc main_arg3)

/-! ## The host operations before the launch -/

theorem V_points (c : Dev nD) : V m c main_v0
    = transpose S64x2x16384 [0, 2, 1] (pts m c) transposes_S64x16384x2_S64x2x16384_0_2_1 := by
  show StableHlo.after hostOps0 (fun b => m (c, b)) (Proc.devRef .tc main_v0) = _
  after_results

theorem V_mask (c : Dev nD) : V m c main_v1
    = shapeCast S64x1x16384 (msk m c) shapeCasts_S64x16384_S64x1x16384 := by
  show StableHlo.after hostOps0 (fun b => m (c, b)) (Proc.devRef .tc main_v1) = _
  after_results
  rfl

theorem V_sharpCentre (c : Dev nD) : V m c main_v2 = mulf (shp m c) (ctr m c) := by
  show StableHlo.after hostOps0 (fun b => m (c, b)) (Proc.devRef .tc main_v2) = _
  after_results

theorem V_sumColumn (c : Dev nD) : V m c main_v6
    = broadcastInDim S64x1 ![0] bcast_S64_S64x1_0 (Host.reduceAdd (mulf (mulf (shp m c) (ctr m c)) (ctr m c))
        (constant S_ .f32 0x00000000#32) reducesTo_S64x2_S64_d1 h_S_) := by
  show StableHlo.after hostOps0 (fun b => m (c, b)) (Proc.devRef .tc main_v6) = _
  after_results

/-- The transposed points at (batch, coordinate, point) are the points at (batch, point, coordinate). -/
theorem points_apply (c : Dev nD) (b : Fin 64) (d : Fin 2) (p : Fin 16384) :
    V m c main_v0 (ix3 b d p) = (pts m c) (ix3 b p d) := by
  rw [V_points]
  exact transpose_ix3_021_apply _ _ b d p

/-- The mask with its unit middle axis at (batch, 0, point) is the mask at (batch, point). -/
theorem mask_apply (c : Dev nD) (b : Fin 64) (p : Fin 16384) :
    V m c main_v1 (ix3 b (0 : Fin 1) p) = (msk m c) (ix2 b p) := by
  rw [V_mask]
  refine shapeCast_apply _ _ (ix3 b (0 : Fin 1) p) (ix2 b p) ?_
  rw [Shape.rowMajor_val_two, Shape.rowMajor_val_three]
  show b.val * 16384 + p.val = (b.val * 1 + 0) * 16384 + p.val
  omega

/-- Sharpness times centre, entry by entry. -/
theorem sharpCentre_apply (c : Dev nD) (j : Fin 64) (d : Fin 2) :
    V m c main_v2 (ix2 j d) = ((shp m c (ix2 j d) : EReal) * (ctr m c (ix2 j d) : EReal)) := by
  rw [V_sharpCentre]
  rfl

/-- The point-independent column: at centre `j`, zero plus the sum over the two coordinates of sharpness · centre · centre. -/
theorem sumColumn_apply (c : Dev nD) (j : Fin 64) :
    V m c main_v6 (ix2 j (0 : Fin 1))
      = Ideal.ofBits .f32 0x00000000#32
        + ∑ d : Fin 2, (((shp m c (ix2 j d) : EReal) * (ctr m c (ix2 j d) : EReal)) * (ctr m c (ix2 j d) : EReal)) := by
  rw [V_sumColumn]
  refine (broadcastInDim_apply _ bcast_S64_S64x1_0 _ (ix2 j (0 : Fin 1)) (ix1 j) (fun a => match a with
    | ⟨0, _⟩ => by show j.val = if (64 : Nat) = 1 then 0 else j.val; rw [if_neg (by decide)])).trans ?_
  simp only [Host.reduceAdd, Ideal.hostReduceAdd_def]
  rw [Ideal.hostReduceAdd_single reducesTo_S64x2_S64_d1 (by decide)]
  refine congrArg₂ (· + ·) rfl (Finset.sum_congr rfl fun (d : Fin 2) _ => ?_)
  exact congrArg (mulf (mulf (shp m c) (ctr m c)) (ctr m c))
    (funext fun a => Fin.ext (by match a with | ⟨0, _⟩ => rfl | ⟨1, _⟩ => rfl))

/-! ## The windows' blocks -/

/-- The printed index maps, decided over the grid: windows 0, 1 and 5 (points, mask, result) sit at row `t` of their
    arrays at grid point `t`, the three parameter tables are staged whole. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- The grid point as a batch index. -/
def batch (t : Fin cfg0.N) : Fin 64 := ⟨t.val, by have := t.isLt; have e : cfg0.N = 64 := N_0; omega⟩

/-- Block `t` of the transposed points, at (0, coordinate, point), is the points at (t, point, coordinate). -/
theorem blk_points (c : Dev nD) (t : Fin cfg0.N) (d : Fin 2) (p : Fin 16384) :
    (iblk m c 0 t : FVec Ideal S1x2x16384 .f32) (ix3 (0 : Fin 1) d p) = pts m c (ix3 (batch t) p d) := by
  obtain ⟨e0, e1, e2, -⟩ := idx_facts t
  refine Eq.trans ?_ (points_apply m c (batch t) d p)
  show V m c main_v0 (((cfg0.win 0).blk t).view.emb (ix3 (0 : Fin 1) d p)) = _
  refine congrArg (V m c main_v0) (funext fun a => Fin.ext ?_)
  match a with
  | ⟨0, _⟩ => show win0_0.index t (0 : Fin 3) * 1 + 1 * 0 = t.val; omega
  | ⟨1, _⟩ => show win0_0.index t (1 : Fin 3) * 2 + 1 * d.val = d.val; omega
  | ⟨2, _⟩ => show win0_0.index t (2 : Fin 3) * 16384 + 1 * p.val = p.val; omega

/-- Block `t` of the mask, at (0, 0, point), is the mask at (t, point). -/
theorem blk_mask (c : Dev nD) (t : Fin cfg0.N) (p : Fin 16384) :
    (iblk m c 1 t : FVec Ideal S1x1x16384 .f32) (ix3 (0 : Fin 1) (0 : Fin 1) p) = msk m c (ix2 (batch t) p) := by
  obtain ⟨-, -, -, e0, e1, e2, -⟩ := idx_facts t
  refine Eq.trans ?_ (mask_apply m c (batch t) p)
  show V m c main_v1 (((cfg0.win 1).blk t).view.emb (ix3 (0 : Fin 1) (0 : Fin 1) p)) = _
  refine congrArg (V m c main_v1) (funext fun a => Fin.ext ?_)
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 16384 + 1 * p.val = p.val; omega

/-- The sharpness table is staged whole. -/
theorem blk_sharp (c : Dev nD) (t : Fin cfg0.N) (j : Fin 64) (d : Fin 2) :
    (iblk m c 2 t : FVec Ideal S64x2 .f32) (ix2 j d) = shp m c (ix2 j d) := by
  obtain ⟨-, -, -, -, -, -, e0, e1, -⟩ := idx_facts t
  refine Eq.trans ?_ (congrFun (V_main_arg3 m c) (ix2 j d))
  show V m c main_arg3 (((cfg0.win 2).blk t).view.emb (ix2 j d)) = _
  refine congrArg (V m c main_arg3) (funext fun a => Fin.ext ?_)
  match a with
  | ⟨0, _⟩ => show win0_2.index t (0 : Fin 2) * 64 + 1 * j.val = j.val; omega
  | ⟨1, _⟩ => show win0_2.index t (1 : Fin 2) * 2 + 1 * d.val = d.val; omega

/-- The sharpness-times-centre table is staged whole. -/
theorem blk_sharpCentre (c : Dev nD) (t : Fin cfg0.N) (j : Fin 64) (d : Fin 2) :
    (iblk m c 3 t : FVec Ideal S64x2 .f32) (ix2 j d) = ((shp m c (ix2 j d) : EReal) * (ctr m c (ix2 j d) : EReal)) := by
  obtain ⟨-, -, -, -, -, -, -, -, e0, e1, -⟩ := idx_facts t
  refine Eq.trans ?_ (sharpCentre_apply m c j d)
  show V m c main_v2 (((cfg0.win 3).blk t).view.emb (ix2 j d)) = _
  refine congrArg (V m c main_v2) (funext fun a => Fin.ext ?_)
  match a with
  | ⟨0, _⟩ => show win0_3.index t (0 : Fin 2) * 64 + 1 * j.val = j.val; omega
  | ⟨1, _⟩ => show win0_3.index t (1 : Fin 2) * 2 + 1 * d.val = d.val; omega

/-- The point-independent column is staged whole. -/
theorem blk_sumColumn (c : Dev nD) (t : Fin cfg0.N) (j : Fin 64) :
    (iblk m c 4 t : FVec Ideal S64x1 .f32) (ix2 j (0 : Fin 1))
      = Ideal.ofBits .f32 0x00000000#32
        + ∑ d : Fin 2, (((shp m c (ix2 j d) : EReal) * (ctr m c (ix2 j d) : EReal)) * (ctr m c (ix2 j d) : EReal)) := by
  obtain ⟨-, -, -, -, -, -, -, -, -, -, e0, e1, -⟩ := idx_facts t
  refine Eq.trans ?_ (sumColumn_apply m c j)
  show V m c main_v6 (((cfg0.win 4).blk t).view.emb (ix2 j (0 : Fin 1))) = _
  refine congrArg (V m c main_v6) (funext fun a => Fin.ext ?_)
  match a with
  | ⟨0, _⟩ => show win0_4.index t (0 : Fin 2) * 64 + 1 * j.val = j.val; omega
  | ⟨1, _⟩ => show win0_4.index t (1 : Fin 2) * 1 + 1 * 0 = 0; omega

end Cert.KernelIdeal.Blocks

end
-- ==== Proof.BlockFold.lean ====
/-
  What the body of the pooling kernel leaves in its output block, as a pure function of the five input blocks.

  The body first fills the block (1 × 1 × 64, one entry per centre) with zeros and then walks the 16384 points of its
  batch element in eight chunks of 2048: each chunk reads the block back and stores it again with the chunk's
  contribution added. So the block at the end is an eight-step fold over the zero block: step `k` applies the chunk's
  arithmetic (the payload of the chunk's one store) to points `2048·k … 2048·k + 2047` and to the block as the
  earlier chunks left it. This module proves exactly that, for any float instance: the pieces the run of the body found
  are one whole-block store per chunk on top of the zero fill, every store covers the whole block, so what the buffer
  reads after the stores of the first `n` chunks is the payload of chunk `n - 1` at what it read after `n - 1` chunks.
-/
import proofs.«147939_j45200235823404_2_alg».proof.Proof.Gen.KernelIdeal.Frame
import Idealize.ShloMosaic.Lib.Pipeline.Value

set_option maxRecDepth 16384

noncomputable section

namespace Cert.KernelIdeal.Fold

open Idealize.ShloMosaic Idealize.ShloMosaic.TcCoe Idealize.SL.Sem
open Cert.KernelIdeal Cert.KernelIdeal.Gen

variable {F : FTy → Type} [FloatOps F]

/-- The arithmetic of chunk `k`: from the point coordinates (`x0`: 2 × 16384) and the mask (`x1`: 1 × 16384) of
    the batch element, restricted to the chunk's 2048 points, the three small parameter blocks, and the block
    `prev` as the earlier chunks left it, the block the chunk stores. -/
def chunk (x0 : Vec F S1x2x16384 .f32) (x1 : Vec F S1x1x16384 .f32) (x2 x3 : Vec F S64x2 .f32) (x4 : Vec F S64x1 .f32)
    (k : Fin k0_t1_loop.trips) (prev : Vec F S1x1x64 .f32) : Vec F S1x1x64 .f32 :=
  k0_pay3 x4 (k0_pay5 (View.ld x1 (Rect.unit (k0_off2 k) S1x1x2048.size (k0_off2_inb k))))
    (k0_pay7 x2 (k0_pay2 x3) (View.ld x0 (Rect.unit (k0_off1 k) S1x2x2048.size (k0_off1_inb k))))
    (k0_pay8 (k0_pay2 x3)) (k0_pay9 (View.ld x0 (Rect.unit (k0_off1 k) S1x2x2048.size (k0_off1_inb k)))) prev

/-- The block after the zero fill and the first `n` chunks. -/
def blockAfter (x0 : Vec F S1x2x16384 .f32) (x1 : Vec F S1x1x16384 .f32) (x2 x3 : Vec F S64x2 .f32) (x4 : Vec F S64x1 .f32) : ℕ → Vec F S1x1x64 .f32
  | 0 => k0_pay1
  | n + 1 => if h : n < k0_t1_loop.trips then chunk x0 x1 x2 x3 x4 ⟨n, h⟩ (blockAfter x0 x1 x2 x3 x4 n)
             else blockAfter x0 x1 x2 x3 x4 n

theorem blockAfter_succ (x0 : Vec F S1x2x16384 .f32) (x1 : Vec F S1x1x16384 .f32) (x2 x3 : Vec F S64x2 .f32) (x4 : Vec F S64x1 .f32) (n : ℕ) (h : n < k0_t1_loop.trips) :
    blockAfter x0 x1 x2 x3 x4 (n + 1) = chunk x0 x1 x2 x3 x4 ⟨n, h⟩ (blockAfter x0 x1 x2 x3 x4 n) := by
  rw [blockAfter]; exact dif_pos h

/-- The offsets of a whole-block rectangle are zero on every axis. -/
theorem zero3 : (![0, 0, 0] : Fin 3 → ℕ) = fun _ => 0 := by
  funext a; fin_cases a <;> rfl
theorem zero2 : (![0, 0] : Fin 2 → ℕ) = fun _ => 0 := by
  funext a; fin_cases a <;> rfl

/-- A load of the whole block after stores over junk reads what the stores left. -/
theorem readBack {sig : RefSig} {κ : Kind} {sp : Space} (v : View sig κ sp S1x1x64 .f32)
    (L : List (View.Piece (Elt F) S1x1x64 .f32)) :
    View.readAt (Elt F) v (Rect.unit ![0, 0, 0] ![1, 1, 64] inb_S1x1x64_S1x1x64_0_0_0).toLoadRect
        (v.writes (Elt F) v.junk L) = View.canon L := by
  rw [View.readAt_writes_junk_eq_canon]
  exact View.ld_unit_zero zero3 _ _

/-- After the zero fill and the stores of the first `n` chunks the block reads `blockAfter n`: each chunk's store
    covers the whole block, and what the chunk loaded back is what the stores before it had left. -/
theorem canon_pieces (c : Dev nD) (i : grid0.Coords) (arg1 : Memref sig .tc .vmem S1x2x16384 .f32) (harg1 : arg1.IsWhole) (arg2 : Memref sig .tc .vmem S1x1x16384 .f32) (harg2 : arg2.IsWhole) (arg3 : Memref sig .tc .vmem S64x2 .f32) (harg3 : arg3.IsWhole) (arg4 : Memref sig .tc .vmem S64x2 .f32) (harg4 : arg4.IsWhole) (arg5 : Memref sig .tc .vmem S64x1 .f32) (harg5 : arg5.IsWhole) (arg6 : Memref sig .tc .vmem S1x1x64 .f32) (harg6 : arg6.IsWhole)
    (v4 v5 : Vec F S64x2 .f32) (v7 : Vec F S64x1 .f32)
    (X1 : BufTy.Contents (Elt F) arg1.view.ty) (X2 : BufTy.Contents (Elt F) arg2.view.ty) (n : ℕ) :
    View.canon (pb_k0_t1 (F := F) Variants.none c none i arg1 harg1 arg2 harg2 arg3 harg3 arg4 harg4 arg5 harg5 arg6 harg6 v4 v5 v7 X1 X2
        (arg6.view.writes (Elt F) arg6.view.junk kernelRun0_A.sl.H5_1) n ++ kernelRun0_A.sl.H5_1)
      = blockAfter (arg1.view.read (Elt F) X1) (arg2.view.read (Elt F) X2) v4 v5 v7 n := by
  induction n with
  | zero =>
    rw [pb_k0_t1.eq_1, List.nil_append]
    unfold kernelRun0_A.sl.H5_1
    rw [View.canon_unit_zero zero3]
    rfl
  | succ n ih =>
    rw [pb_k0_t1.eq_2]
    unfold pb_k0_t1Step
    by_cases h : n < k0_t1_loop.trips
    · rw [dif_pos h, blockAfter_succ _ _ _ _ _ n h]
      unfold tripL_k0_t1 trip_k0_t1
      dsimp only
      rw [List.append_assoc, List.singleton_append, View.canon_cons_unit_zero zero3]
      rw [← View.writes_append, readBack, ih]
      rfl
    · rw [dif_neg h, blockAfter, dif_neg h]
      exact ih

/-- A load of a whole staged parameter block reads the block. -/
theorem load_whole2 {S : Shape} (hS : S.rank = 2) {sig' : RefSig} (M : Memref sig' .tc .vmem S .f32) (hM : M.IsWhole)
    {off : Fin S.rank → ℕ} (hoff : off = fun _ => 0) (inb : ∀ a, off a + S.size a ≤ S.size a) (x : Vec F S .f32) :
    View.readAt (Elt F) M.view (Rect.unit off S.size inb).toLoadRect (hM.unread x) = x := by
  show View.ld (M.view.read (Elt F) (hM.unread x)) (Rect.unit off S.size inb) = x
  rw [hM.read_unread]
  exact View.ld_unit_zero hoff _ _

/-- THE BODY'S OUTPUT BLOCK: on any staging memrefs, at any grid point, from input blocks `x0 … x4`, the run of the
    body leaves in the output's staging buffer the zero block folded over the eight chunks. -/
theorem out_eq (c : Dev nD) (i : grid0.Coords) (arg1 : Memref sig .tc .vmem S1x2x16384 .f32) (harg1 : arg1.IsWhole) (arg2 : Memref sig .tc .vmem S1x1x16384 .f32) (harg2 : arg2.IsWhole) (arg3 : Memref sig .tc .vmem S64x2 .f32) (harg3 : arg3.IsWhole) (arg4 : Memref sig .tc .vmem S64x2 .f32) (harg4 : arg4.IsWhole) (arg5 : Memref sig .tc .vmem S64x1 .f32) (harg5 : arg5.IsWhole) (arg6 : Memref sig .tc .vmem S1x1x64 .f32) (harg6 : arg6.IsWhole) (x0 : Vec F S1x2x16384 .f32) (x1 : Vec F S1x1x16384 .f32) (x2 x3 : Vec F S64x2 .f32) (x4 : Vec F S64x1 .f32) :
    out0_A_5 c i arg1 harg1 arg2 harg2 arg3 harg3 arg4 harg4 arg5 harg5 arg6 harg6 x0 x1 x2 x3 x4 = blockAfter x0 x1 x2 x3 x4 k0_t1_loop.trips := by
  unfold out0_A_5
  rw [View.read_writes_junk_eq_canon]
  unfold kernelRun0_A
  dsimp only
  refine (canon_pieces c i arg1 harg1 arg2 harg2 arg3 harg3 arg4 harg4 arg5 harg5 arg6 harg6 _ _ _ _ _ _).trans ?_
  rw [harg1.read_unread, harg2.read_unread, load_whole2 rfl arg3 harg3 zero2, load_whole2 rfl arg4 harg4 zero2,
    load_whole2 rfl arg5 harg5 zero2]

end Cert.KernelIdeal.Fold

end
-- ==== Proof.LibColumnLayout.lean ====
/-
  Column layouts read at an index given by coordinates.

  A vector of length `a` viewed as a column `[a, 1]`, a column viewed as a vector again, and a column repeated along a
  new last axis to `[a, b]` (a per-row quantity met with a per-column one, as after a sum that keeps its axis): each
  reads, at an index written by its coordinates, the operand at the evident index. They complete the library's
  leading-unit-axis casts and its row broadcast; like those they are the general layout lemmas with the coordinate
  arithmetic discharged once.
-/
import Idealize.ShloMosaic.Lib.ValueLayout

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Column `o` of an `[a, n]` matrix, taken as a slice `[a, 1]`, flattened to `[a]` and made a column again (how a
    per-row parameter is picked out of a small parameter table), reads at `(i, 0)` the matrix at `(i, o)`. -/
theorem column_apply {a n : ℕ} (o : ℕ) (v : (⟨2, ![a, n]⟩ : Shape).Idx → α)
    (hs : (⟨2, ![a, n]⟩ : Shape).Slices ![0, o] ⟨2, ![a, 1]⟩) (h1 : (⟨2, ![a, 1]⟩ : Shape).ShapeCasts ⟨1, ![a]⟩)
    (h2 : (⟨1, ![a]⟩ : Shape).ShapeCasts ⟨2, ![a, 1]⟩) (i : Fin a) (d : Fin n) (hd : d.val = o) :
    shapeCast ⟨2, ![a, 1]⟩ (shapeCast ⟨1, ![a]⟩ (extractStridedSlice ⟨2, ![a, 1]⟩ ![0, o] v hs) h1) h2 (ix2 i (0 : Fin 1))
      = v (ix2 i d) :=
  (shapeCast_a_a1_apply _ _ i 0).trans ((shapeCast_a1_a_apply _ _ i).trans
    (slice2_axis1_apply o v hs i (0 : Fin 1) d (by rw [hd]; rfl)))

end Idealize.ShloMosaic.ValueIdx
-- ==== Proof.RbfLaw.lean ====
/-
  The algebra behind the pooled Gaussian radial basis layer, on the extended reals.

  For one centre with sharpness `s d`, position `c d` (`d` = 0, 1) and one point `x d`, the layer's exponent is the weighted
  squared distance  Σ_d s d · (c d − x d)².  Expanding the square gives  Σ_d (s d · x d² − 2·(s d · c d)·x d) + Σ_d (s d · c d)·c d,
  in which the last sum does not depend on the point. The two are equal for REAL inputs (the expansion distributes a
  product over a difference, which fails at the infinities), in exactly the association the two programs compute them
  in. The rest is bookkeeping that holds on all extended reals: `0 − e = −e`; a sum over 16384 points is the sum over
  eight chunks of the sums over the chunks' 2048 points; and an accumulator that starts at zero and adds one term per
  step ends at the sum of the terms.
-/
import Idealize.ShloMosaic.PureOps.Ideal
import Idealize.ShloMosaic.PureOps.Ideal.Laws

noncomputable section

namespace Cert.Rbf

open Idealize.ShloMosaic
open scoped BigOperators

/-- The word `0x40000000` is the number two. -/
theorem two_f32 : Ideal.ofBits .f32 0x40000000#32 = ((2 : ℝ) : EReal) := by
  simp [Ideal.ofBits, Ideal.ieee, -EReal.coe_mul]; norm_num

/-- Subtracting from zero is negation, at the infinities too. -/
theorem zero_sub_eq (x : EReal) : (0 : EReal) - x = -x := by
  rw [sub_eq_add_neg, zero_add]

/-- THE LAW, for real sharpness, centre and point: the expanded exponent, associated as the kernel computes it (the
    point-independent sum `Σ_d (s d · c d) · c d` added last, starting from its own zero), is the weighted squared
    distance associated as the reference computes it. -/
theorem expanded_eq_distance (s c x : Fin 2 → ℝ) :
    ((((((0 : EReal) + (s 0 : EReal) * ((x 0 : EReal) * (x 0 : EReal)))
          - (((2 : ℝ) : EReal) * ((s 0 : EReal) * (c 0 : EReal))) * (x 0 : EReal))
        + (s 1 : EReal) * ((x 1 : EReal) * (x 1 : EReal)))
        - (((2 : ℝ) : EReal) * ((s 1 : EReal) * (c 1 : EReal))) * (x 1 : EReal))
      + ((0 : EReal) + ∑ d : Fin 2, ((s d : EReal) * (c d : EReal)) * (c d : EReal)))
    = (0 : EReal) + ∑ d : Fin 2, ((s d : EReal) * ((c d : EReal) - (x d : EReal))) * ((c d : EReal) - (x d : EReal)) := by
  rw [Fin.sum_univ_two, Fin.sum_univ_two]
  simp only [← EReal.coe_mul, ← EReal.coe_add, ← EReal.coe_sub, ← EReal.coe_zero]
  congr 1
  ring

/-- A sum over 16384 points is the sum, over eight chunks, of the sums over each chunk's 2048 points. -/
theorem sum_chunks {M : Type*} [AddCommMonoid M] (f : Fin 16384 → M) :
    ∑ p : Fin 16384, f p = ∑ k : Fin 8, ∑ q : Fin 2048, f ⟨2048 * k.val + q.val, by omega⟩ := by
  rw [← Finset.sum_product', ← (finProdFinEquiv (m := 8) (n := 2048)).sum_comp]
  refine Finset.sum_congr (by simp) fun kq _ => ?_
  refine congrArg f (Fin.ext ?_)
  simp [finProdFinEquiv, Nat.add_comm]

/-- An accumulator that starts at zero and adds `t k` at step `k` holds, after `n` steps, the sum of the first `n` terms. -/
theorem acc_eq_sum {M : Type*} [AddCommMonoid M] (t : ℕ → M) (a : ℕ → M) (h0 : a 0 = 0)
    (hs : ∀ n, a (n + 1) = a n + t n) (n : ℕ) : a n = ∑ k ∈ Finset.range n, t k := by
  induction n with
  | zero => simpa using h0
  | succ n ih => rw [hs, ih, Finset.sum_range_succ]

end Cert.Rbf

end
-- ==== Proof.BlockValue.lean ====
/-
  The body of the pooling kernel read at an index, on the extended reals.

  The output block has one entry per centre `j`. Each chunk's store adds to entry `j` the sum, over the chunk's 2048
  points, of the point's WEIGHT for that centre: the mask at the point times the exponential of minus the expanded
  exponent. This module reads the chunk's arithmetic — a chain of slices, casts and broadcasts around a handful of
  pointwise operations and one sum along the points — at entry `j`, coordinate by coordinate, and then adds up the eight
  chunks over the zero fill: the block ends holding, at `j`, the sum of the weights of all 16384 points.
-/
import proofs.«147939_j45200235823404_2_alg».proof.Proof.BlockFold
import proofs.«147939_j45200235823404_2_alg».proof.Proof.LibColumnLayout
import proofs.«147939_j45200235823404_2_alg».proof.Proof.RbfLaw
import Idealize.ShloMosaic.Lib.ValueIdx
import Idealize.ShloMosaic.Lib.ValueLayout
import Idealize.ShloMosaic.PureOps.Ideal.Laws

set_option maxRecDepth 16384

noncomputable section

namespace Cert.KernelIdeal.BlockValue

open Idealize.ShloMosaic Idealize.ShloMosaic.ValueIdx
open Cert.KernelIdeal Cert.KernelIdeal.Gen
open scoped BigOperators

/-- The two float literals of the body: zero and two. -/
abbrev Z : EReal := Ideal.ofBits .f32 0x00000000#32
abbrev T : EReal := Ideal.ofBits .f32 0x40000000#32

theorem pay4_apply (v15 : FVec Ideal S1x2x2048 .f32) (d : Fin 2) (q : Fin 2048) :
    k0_pay4 (F := Ideal) v15 (ix2 d q) = v15 (ix3 (0 : Fin 1) d q) := by
  unfold k0_pay4
  exact shapeCast_1ab_ab_apply _ _ d q

theorem row0_apply (v15 : FVec Ideal S1x2x2048 .f32) (q : Fin 2048) :
    shapeCast S2048 (extractStridedSlice S1x2048 ![0, 0] (k0_pay4 (F := Ideal) v15) slices_S2x2048_o0_0_S1x2048) shapeCasts_S1x2048_S2048 (ix1 q)
      = v15 (ix3 (0 : Fin 1) (0 : Fin 2) q) :=
  (shapeCast_1a_a_apply _ _ q).trans ((slice2_axis0_apply 0 _ _ (0 : Fin 1) q (0 : Fin 2) rfl).trans (pay4_apply v15 0 q))

theorem pay6_apply (v15 : FVec Ideal S1x2x2048 .f32) (q : Fin 2048) :
    k0_pay6 (F := Ideal) v15 (ix1 q) = v15 (ix3 (0 : Fin 1) (1 : Fin 2) q) := by
  unfold k0_pay6
  exact (shapeCast_1a_a_apply _ _ q).trans ((slice2_axis0_apply 1 _ _ (0 : Fin 1) q (1 : Fin 2) rfl).trans (pay4_apply v15 1 q))

theorem pay9_apply (v15 : FVec Ideal S1x2x2048 .f32) (q : Fin 2048) :
    k0_pay9 (F := Ideal) v15 (ix2 (0 : Fin 1) q) = v15 (ix3 (0 : Fin 1) (1 : Fin 2) q) := by
  unfold k0_pay9
  exact (shapeCast_a_1a_apply _ _ 0 q).trans (pay6_apply v15 q)

theorem pay5_apply (v18 : FVec Ideal S1x1x2048 .f32) (q : Fin 2048) :
    k0_pay5 (F := Ideal) v18 (ix2 (0 : Fin 1) q) = v18 (ix3 (0 : Fin 1) (0 : Fin 1) q) := by
  unfold k0_pay5
  exact shapeCast_1ab_ab_apply _ _ 0 q

theorem pay2_eq (v5 : FVec Ideal S64x2 .f32) : k0_pay2 (F := Ideal) v5 = v5 := by
  unfold k0_pay2
  exact shapeCast_self _ _

theorem col0_apply (v : FVec Ideal S64x2 .f32) (j : Fin 64) :
    shapeCast S64x1 (shapeCast S64 (extractStridedSlice S64x1 ![0, 0] v slices_S64x2_o0_0_S64x1) shapeCasts_S64x1_S64)
        shapeCasts_S64_S64x1 (ix2 j (0 : Fin 1)) = v (ix2 j (0 : Fin 2)) :=
  column_apply 0 v _ _ _ j 0 rfl

theorem col1_apply (v : FVec Ideal S64x2 .f32) (j : Fin 64) :
    shapeCast S64x1 (shapeCast S64 (extractStridedSlice S64x1 ![0, 1] v slices_S64x2_o0_1_S64x1) shapeCasts_S64x1_S64)
        shapeCasts_S64_S64x1 (ix2 j (0 : Fin 1)) = v (ix2 j (1 : Fin 2)) :=
  column_apply 1 v _ _ _ j 1 rfl

theorem pay8_apply (v6 : FVec Ideal S64x2 .f32) (j : Fin 64) :
    k0_pay8 (F := Ideal) v6 (ix2 j (0 : Fin 1)) = T * v6 (ix2 j (1 : Fin 2)) := by
  unfold k0_pay8
  show T * _ = _
  exact congrArg (T * ·) (col1_apply v6 j)

theorem pay7_apply (v4 v6 : FVec Ideal S64x2 .f32) (v15 : FVec Ideal S1x2x2048 .f32) (j : Fin 64) (q : Fin 2048) :
    k0_pay7 (F := Ideal) v4 v6 v15 (ix2 j q)
      = (((Z + v4 (ix2 j (0 : Fin 2)) * (v15 (ix3 (0 : Fin 1) (0 : Fin 2) q) * v15 (ix3 (0 : Fin 1) (0 : Fin 2) q)))
            - (T * v6 (ix2 j (0 : Fin 2))) * v15 (ix3 (0 : Fin 1) (0 : Fin 2) q))
          + v4 (ix2 j (1 : Fin 2)) * (v15 (ix3 (0 : Fin 1) (1 : Fin 2) q) * v15 (ix3 (0 : Fin 1) (1 : Fin 2) q))) := by
  unfold k0_pay7
  simp only [addf_apply, subf_apply, mulf_apply, broadcast_apply, broadcastTo_a1_ab_apply, broadcastTo_1b_ab_apply,
    shapeCast_a_1a_apply, col0_apply, col1_apply, row0_apply, pay6_apply]
  rfl

theorem exp_apply {s : Shape} {φ : FTy} (a : FVec Ideal s φ) (i : s.Idx) : exp a i = Ideal.exp (a i) := rfl

/-- The chunk's store, at centre `j`: the block as it was plus the sum, over the chunk's 2048 points, of the masked
    Gaussian weights — the weight's exponent assembled from the three carried pieces (`v55`: everything but the last
    cross term; `v57`, `v58`: the last cross term's two factors) and the point-independent column `v7`. -/
theorem pay3_apply (v7 : FVec Ideal S64x1 .f32) (v19 : FVec Ideal S1x2048 .f32) (v55 : FVec Ideal S64x2048 .f32)
    (v57 : FVec Ideal S64x1 .f32) (v58 : FVec Ideal S1x2048 .f32) (v71 : FVec Ideal S1x1x64 .f32) (j : Fin 64) :
    k0_pay3 (F := Ideal) v7 v19 v55 v57 v58 v71 (ix3 (0 : Fin 1) (0 : Fin 1) j)
      = v71 (ix3 (0 : Fin 1) (0 : Fin 1) j)
        + ∑ q : Fin 2048, Ideal.exp (Z - ((v55 (ix2 j q) - v57 (ix2 j (0 : Fin 1)) * v58 (ix2 (0 : Fin 1) q)) + v7 (ix2 j (0 : Fin 1))))
            * v19 (ix2 (0 : Fin 1) q) := by
  unfold k0_pay3
  simp only [shapeCast_ab_1ab_apply, addf_apply, shapeCast_1ab_ab_apply, shapeCast_a_1a_apply]
  refine congrArg (v71 (ix3 (0 : Fin 1) (0 : Fin 1) j) + ·) ?_
  refine (Ideal.multiReduction_add_single _ _ reduces_S64x2048_S64 _ _ (ix1 j)).trans ?_
  refine Finset.sum_congr rfl fun (q : Fin 2048) _ => ?_
  have hl : reduces_S64x2048_S64.lift (ix1 j) q = ix2 j q :=
    funext fun a => Fin.ext (by match a with | ⟨0, _⟩ => rfl | ⟨1, _⟩ => rfl)
  rw [hl]
  simp only [mulf_apply, exp_apply, subf_apply, addf_apply, broadcast_apply, broadcastTo_a1_ab_apply,
    broadcastTo_1b_ab_apply, shapeCast_self]
  rfl

/-- The loop makes eight trips. -/
theorem trips_eq : k0_t1_loop.trips = 8 := by decide +kernel

/-- THE WEIGHT of point `p` for centre `j`, as the kernel computes it from its five blocks: the mask at `p` times the
    exponential of minus the expanded exponent — `x2` the sharpness, `x3` sharpness times centre, `x4` the
    point-independent sum, `x0` the point's two coordinates. -/
def weight (x0 : FVec Ideal S1x2x16384 .f32) (x1 : FVec Ideal S1x1x16384 .f32) (x2 x3 : FVec Ideal S64x2 .f32) (x4 : FVec Ideal S64x1 .f32) (j : Fin 64) (p : Fin 16384) : EReal :=
  Ideal.exp (Z - (((((Z + x2 (ix2 j (0 : Fin 2)) * (x0 (ix3 (0 : Fin 1) (0 : Fin 2) p) * x0 (ix3 (0 : Fin 1) (0 : Fin 2) p)))
            - (T * x3 (ix2 j (0 : Fin 2))) * x0 (ix3 (0 : Fin 1) (0 : Fin 2) p))
          + x2 (ix2 j (1 : Fin 2)) * (x0 (ix3 (0 : Fin 1) (1 : Fin 2) p) * x0 (ix3 (0 : Fin 1) (1 : Fin 2) p)))
          - (T * x3 (ix2 j (1 : Fin 2))) * x0 (ix3 (0 : Fin 1) (1 : Fin 2) p))
        + x4 (ix2 j (0 : Fin 1))))
    * x1 (ix3 (0 : Fin 1) (0 : Fin 1) p)

/-- The same over a natural number, zero past the last point: so that a chunk's points are written `2048·k + q`. -/
def weightN (x0 : FVec Ideal S1x2x16384 .f32) (x1 : FVec Ideal S1x1x16384 .f32) (x2 x3 : FVec Ideal S64x2 .f32) (x4 : FVec Ideal S64x1 .f32) (j : Fin 64) (p : ℕ) : EReal :=
  if h : p < 16384 then weight x0 x1 x2 x3 x4 j ⟨p, h⟩ else 0

/-- A chunk's load of the points reads points `2048·k …` of the block. -/
theorem load_points (x0 : FVec Ideal S1x2x16384 .f32) (k : Fin k0_t1_loop.trips) (d : Fin 2) (q : Fin 2048)
    (h : 2048 * k.val + q.val < 16384) :
    View.ld (Val := Elt Ideal) (e' := .f32) x0 (Rect.unit (k0_off1 k) S1x2x2048.size (k0_off1_inb k)) (ix3 (0 : Fin 1) d q)
      = x0 (ix3 (0 : Fin 1) d ⟨2048 * k.val + q.val, h⟩) := by
  show x0 ((Rect.unit (s := S1x2x16384) (k0_off1 k) S1x2x2048.size (k0_off1_inb k)).idx (ix3 (0 : Fin 1) d q)) = _
  refine congrArg x0 (funext fun a => Fin.ext ?_)
  have e := k0_off1_eq k
  match a with
  | ⟨0, _⟩ => show (k0_off1 k) 0 + 1 * 0 = 0; rw [e]; rfl
  | ⟨1, _⟩ => show (k0_off1 k) 1 + 1 * d.val = d.val; rw [e]; simp
  | ⟨2, _⟩ => show (k0_off1 k) 2 + 1 * q.val = 2048 * k.val + q.val; rw [e]; simp

/-- and its load of the mask likewise. -/
theorem load_mask (x1 : FVec Ideal S1x1x16384 .f32) (k : Fin k0_t1_loop.trips) (q : Fin 2048)
    (h : 2048 * k.val + q.val < 16384) :
    View.ld (Val := Elt Ideal) (e' := .f32) x1 (Rect.unit (k0_off2 k) S1x1x2048.size (k0_off2_inb k)) (ix3 (0 : Fin 1) (0 : Fin 1) q)
      = x1 (ix3 (0 : Fin 1) (0 : Fin 1) ⟨2048 * k.val + q.val, h⟩) := by
  show x1 ((Rect.unit (s := S1x1x16384) (k0_off2 k) S1x1x2048.size (k0_off2_inb k)).idx (ix3 (0 : Fin 1) (0 : Fin 1) q)) = _
  refine congrArg x1 (funext fun a => Fin.ext ?_)
  have e := k0_off2_eq k
  match a with
  | ⟨0, _⟩ => show (k0_off2 k) 0 + 1 * 0 = 0; rw [e]; rfl
  | ⟨1, _⟩ => show (k0_off2 k) 1 + 1 * 0 = 0; rw [e]; rfl
  | ⟨2, _⟩ => show (k0_off2 k) 2 + 1 * q.val = 2048 * k.val + q.val; rw [e]; simp

/-- ONE CHUNK at centre `j`: the block as it was plus the weights of the chunk's 2048 points. -/
theorem chunk_apply (x0 : FVec Ideal S1x2x16384 .f32) (x1 : FVec Ideal S1x1x16384 .f32) (x2 x3 : FVec Ideal S64x2 .f32) (x4 : FVec Ideal S64x1 .f32) (k : Fin k0_t1_loop.trips) (prev : FVec Ideal S1x1x64 .f32) (j : Fin 64) :
    Fold.chunk (F := Ideal) x0 x1 x2 x3 x4 k prev (ix3 (0 : Fin 1) (0 : Fin 1) j)
      = prev (ix3 (0 : Fin 1) (0 : Fin 1) j) + ∑ q : Fin 2048, weightN x0 x1 x2 x3 x4 j (2048 * k.val + q.val) := by
  unfold Fold.chunk
  rw [pay3_apply]
  refine congrArg (prev _ + ·) (Finset.sum_congr rfl fun q _ => ?_)
  have hk : k.val < 8 := by have := k.isLt; have e := trips_eq; omega
  have h : 2048 * k.val + q.val < 16384 := by have := q.isLt; omega
  rw [pay7_apply, pay8_apply, pay9_apply, pay5_apply, pay2_eq, load_points x0 k 0 q h, load_points x0 k 1 q h,
    load_mask x1 k q h]
  unfold weightN
  rw [dif_pos h]
  rfl

/-- The zero fill, at any centre. -/
theorem zeroBlock_apply (j : Fin 64) : k0_pay1 (F := Ideal) (ix3 (0 : Fin 1) (0 : Fin 1) j) = 0 := by
  unfold k0_pay1
  exact (shapeCast_ab_1ab_apply _ _ (0 : Fin 1) (0 : Fin 1) j).trans Ideal.ofBits_zero_f32

/-- THE BLOCK AFTER THE BODY, at centre `j`: the sum of the weights of all the points — the zero fill, then one
    chunk's sum added per trip, and the eight chunks' points are all the points. -/
theorem blockAfter_apply (x0 : FVec Ideal S1x2x16384 .f32) (x1 : FVec Ideal S1x1x16384 .f32) (x2 x3 : FVec Ideal S64x2 .f32) (x4 : FVec Ideal S64x1 .f32) (j : Fin 64) :
    Fold.blockAfter (F := Ideal) x0 x1 x2 x3 x4 k0_t1_loop.trips (ix3 (0 : Fin 1) (0 : Fin 1) j)
      = ∑ p : Fin 16384, weight x0 x1 x2 x3 x4 j p := by
  have hacc : Fold.blockAfter (F := Ideal) x0 x1 x2 x3 x4 k0_t1_loop.trips (ix3 (0 : Fin 1) (0 : Fin 1) j)
      = ∑ k ∈ Finset.range k0_t1_loop.trips,
          (if k < 8 then ∑ q : Fin 2048, weightN x0 x1 x2 x3 x4 j (2048 * k + q.val) else 0) :=
    Cert.Rbf.acc_eq_sum _ (fun n => Fold.blockAfter (F := Ideal) x0 x1 x2 x3 x4 n (ix3 (0 : Fin 1) (0 : Fin 1) j))
      (zeroBlock_apply j) (fun n => by
        by_cases h : n < k0_t1_loop.trips
        · have h8 : n < 8 := by have := trips_eq; omega
          show Fold.blockAfter (F := Ideal) x0 x1 x2 x3 x4 (n + 1) (ix3 (0 : Fin 1) (0 : Fin 1) j) = _
          rw [Fold.blockAfter_succ _ _ _ _ _ n h, chunk_apply, if_pos h8]
        · have h8 : ¬ n < 8 := by have := trips_eq; omega
          show Fold.blockAfter (F := Ideal) x0 x1 x2 x3 x4 (n + 1) (ix3 (0 : Fin 1) (0 : Fin 1) j) = _
          rw [Fold.blockAfter, dif_neg h, if_neg h8, add_zero]) _
  rw [hacc, trips_eq, Finset.sum_range, Cert.Rbf.sum_chunks (fun p => weight x0 x1 x2 x3 x4 j p)]
  refine Finset.sum_congr rfl fun k _ => ?_
  rw [if_pos k.isLt]
  refine Finset.sum_congr rfl fun q _ => ?_
  unfold weightN
  rw [dif_pos (by have := k.isLt; have := q.isLt; omega)]

end Cert.KernelIdeal.BlockValue

end
-- ==== Proof.Spec.lean ====
/-
  The pooled Gaussian radial basis layer as one function of its four arguments, in the two arrangements the two
  programs compute, and that the arrangements agree.

  Arguments: the points `a0` (batch × point × coordinate), the mask `a1` (batch × point), the centres `a2` and the
  sharpness `a3` (centre × coordinate). The result at (batch `b`, centre `j`) is the sum over the points `p` of
  mask(b, p) · exp(−Σ_d sharpness(j, d) · (centre(j, d) − point(b, p, d))²).
  The reference computes the exponent as written, negates it, and adds the weights up from a zero; the kernel expands
  the square (see the law module), subtracts the exponent from zero, and adds the weights up with no leading zero. For
  points, centres and sharpness that are real numbers the two results are equal; the mask may be any extended real.
-/
import proofs.«147939_j45200235823404_2_alg».proof.Proof.RbfLaw
import Idealize.ShloMosaic.Lib.ValueIdx

noncomputable section

namespace Cert.Rbf

open Idealize.ShloMosaic Idealize.ShloMosaic.ValueIdx
open scoped BigOperators

abbrev Pts := (⟨3, ![64, 16384, 2]⟩ : Shape).Idx → EReal
abbrev Msk := (⟨2, ![64, 16384]⟩ : Shape).Idx → EReal
abbrev Par := (⟨2, ![64, 2]⟩ : Shape).Idx → EReal
abbrev Out := (⟨2, ![64, 64]⟩ : Shape).Idx → EReal

/-- The two float literals of the programs: zero and two. -/
abbrev Z : EReal := Ideal.ofBits .f32 0x00000000#32
abbrev T : EReal := Ideal.ofBits .f32 0x40000000#32

/-! ## The reference's arrangement -/

def refExpo (a0 : Pts) (a2 a3 : Par) (b j : Fin 64) (p : Fin 16384) : EReal :=
  Z + ∑ d : Fin 2, (a3 (ix2 j d) * (a2 (ix2 j d) - a0 (ix3 b p d))) * (a2 (ix2 j d) - a0 (ix3 b p d))

def refWeight (a0 : Pts) (a1 : Msk) (a2 a3 : Par) (b j : Fin 64) (p : Fin 16384) : EReal :=
  Ideal.exp (-(refExpo a0 a2 a3 b j p)) * a1 (ix2 b p)

def refOut (a0 : Pts) (a1 : Msk) (a2 a3 : Par) : Out := fun i =>
  Z + ∑ p : Fin 16384, refWeight a0 a1 a2 a3 ⟨(i 0).val, idx2_lt0 i⟩ ⟨(i 1).val, idx2_lt1 i⟩ p

/-! ## The kernel's arrangement -/

def kerExpo (a0 : Pts) (a2 a3 : Par) (b j : Fin 64) (p : Fin 16384) : EReal :=
  ((((Z + a3 (ix2 j (0 : Fin 2)) * (a0 (ix3 b p (0 : Fin 2)) * a0 (ix3 b p (0 : Fin 2))))
        - (T * (a3 (ix2 j (0 : Fin 2)) * a2 (ix2 j (0 : Fin 2)))) * a0 (ix3 b p (0 : Fin 2)))
      + a3 (ix2 j (1 : Fin 2)) * (a0 (ix3 b p (1 : Fin 2)) * a0 (ix3 b p (1 : Fin 2))))
      - (T * (a3 (ix2 j (1 : Fin 2)) * a2 (ix2 j (1 : Fin 2)))) * a0 (ix3 b p (1 : Fin 2)))
    + (Z + ∑ d : Fin 2, (a3 (ix2 j d) * a2 (ix2 j d)) * a2 (ix2 j d))

def kerWeight (a0 : Pts) (a1 : Msk) (a2 a3 : Par) (b j : Fin 64) (p : Fin 16384) : EReal :=
  Ideal.exp (Z - kerExpo a0 a2 a3 b j p) * a1 (ix2 b p)

def kerOut (a0 : Pts) (a1 : Msk) (a2 a3 : Par) : Out := fun i =>
  ∑ p : Fin 16384, kerWeight a0 a1 a2 a3 ⟨(i 0).val, idx2_lt0 i⟩ ⟨(i 1).val, idx2_lt1 i⟩ p

/-! ## They agree on real inputs -/

/-- Every entry of the array is a real number. -/
def AllReal {S : Shape} (a : S.Idx → EReal) : Prop := ∀ i, ∃ r : ℝ, a i = (r : EReal)

theorem kerExpo_eq_refExpo (a0 : Pts) (a2 a3 : Par) (h0 : AllReal a0) (h2 : AllReal a2) (h3 : AllReal a3)
    (b j : Fin 64) (p : Fin 16384) : kerExpo a0 a2 a3 b j p = refExpo a0 a2 a3 b j p := by
  choose r0 e0 using h0
  choose r2 e2 using h2
  choose r3 e3 using h3
  unfold kerExpo refExpo
  simp only [e0, e2, e3, two_f32, Ideal.ofBits_zero_f32]
  exact expanded_eq_distance (fun d => r3 (ix2 j d)) (fun d => r2 (ix2 j d)) (fun d => r0 (ix3 b p d))

/-- THE TWO ARRANGEMENTS AGREE when points, centres and sharpness are real. -/
theorem kerOut_eq_refOut (a0 : Pts) (a1 : Msk) (a2 a3 : Par) (h0 : AllReal a0) (h2 : AllReal a2) (h3 : AllReal a3) :
    kerOut a0 a1 a2 a3 = refOut a0 a1 a2 a3 := by
  funext i
  unfold kerOut refOut
  rw [show (Z : EReal) = 0 from Ideal.ofBits_zero_f32, zero_add]
  refine Finset.sum_congr rfl fun p _ => ?_
  unfold kerWeight refWeight
  rw [kerExpo_eq_refExpo a0 a2 a3 h0 h2 h3, show (Z : EReal) = 0 from Ideal.ofBits_zero_f32, zero_sub_eq]

end Cert.Rbf

end
-- ==== Proof.Result.lean ====
/-
  The pooling kernel's program ends with the layer's function of its arguments, in the kernel's arrangement.

  Grid point `t` runs the body on row `t` of the points and of the mask and on the three parameter tables; its output
  block (1 × 1 × 64) holds, at centre `j`, the sum over the points of the kernel's weight for batch element `t`; it is
  written back as row `t` of the launch's 64 × 1 × 64 result. The 64 rows cover that array, so after the launch it
  holds the kernel's arrangement of the layer at (t, 0, j); the host's final reshape drops the unit axis.
-/
import proofs.«147939_j45200235823404_2_alg».proof.Proof.Blocks
import proofs.«147939_j45200235823404_2_alg».proof.Proof.BlockValue
import proofs.«147939_j45200235823404_2_alg».proof.Proof.Spec
import Idealize.ShloMosaic.Lib.Pipeline.Value

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.Rbf
open scoped BigOperators

variable (m : (ℓ : Loc nD τ sig) → Buf (Elt Ideal) ℓ) (ρ : Dev nD → PrngReg)

/-- What the body leaves in the output's staging buffer at grid point `t`: the zero block folded over the eight chunks
    of the point's input blocks. -/
theorem outsAt_eq (c : Dev nD) (t : Fin cfg0.N) :
    outsAt0 m c t = Fold.blockAfter (F := Ideal) (iblk m c 0 t) (iblk m c 1 t) (iblk m c 2 t) (iblk m c 3 t) (iblk m c 4 t) k0_t1_loop.trips :=
  Fold.out_eq c (grid0.coords t) (ms0_0 t) (hs0_0 t) (ms0_1 t) (hs0_1 t) (ms0_2 t) (hs0_2 t) (ms0_3 t) (hs0_3 t)
    (ms0_4 t) (hs0_4 t) (ms0_5 t) (hs0_5 t) (iblk m c 0 t) (iblk m c 1 t) (iblk m c 2 t) (iblk m c 3 t) (iblk m c 4 t)

/-- At grid point `t` the body's weight of point `p` for centre `j`, computed from the staged blocks, is the kernel's
    weight of the layer for batch element `t`. -/
theorem weight_eq (c : Dev nD) (t : Fin cfg0.N) (j : Fin 64) (p : Fin 16384) :
    BlockValue.weight (iblk m c 0 t) (iblk m c 1 t) (iblk m c 2 t) (iblk m c 3 t) (iblk m c 4 t) j p = kerWeight (pts m c) (msk m c) (ctr m c) (shp m c) (batch t) j p := by
  unfold BlockValue.weight kerWeight kerExpo
  rw [blk_points m c t 0 p, blk_points m c t 1 p, blk_mask m c t p, blk_sharp m c t j 0, blk_sharp m c t j 1,
    blk_sharpCentre m c t j 0, blk_sharpCentre m c t j 1, blk_sumColumn m c t j]

/-- Two functions on a 1 × 1 × 64 block are equal when they agree at every centre. -/
theorem ext_block {α : Type} (f g : S1x1x64.Idx → α)
    (h : ∀ j : Fin 64, f (ix3 (0 : Fin 1) (0 : Fin 1) j) = g (ix3 (0 : Fin 1) (0 : Fin 1) j)) : f = g := by
  funext y
  have h0 : (y 0).val < 1 := (y 0).isLt
  have h1 : (y 1).val < 1 := (y 1).isLt
  have h2 : (y 2).val < 64 := (y 2).isLt
  have e : y = ix3 (0 : Fin 1) (0 : Fin 1) (⟨(y 2).val, h2⟩ : Fin 64) := by
    funext a; apply Fin.ext
    match a with
    | ⟨0, _⟩ => show (y 0).val = 0; omega
    | ⟨1, _⟩ => show (y 1).val = 0; omega
    | ⟨2, _⟩ => rfl
  rw [e]; exact h _

/-- The launch's result array (64 × 1 × 64): at (t, 0, j) the kernel's arrangement of the layer at (t, j). -/
def launched (c : Dev nD) : FVec Ideal S64x1x64 .f32 := fun i =>
  kerOut (pts m c) (msk m c) (ctr m c) (shp m c) (ix2 (⟨(i 0).val, (i 0).isLt⟩ : Fin 64) (⟨(i 2).val, (i 2).isLt⟩ : Fin 64))

/-- Row `b` of the result as a 1 × 1 × 64 block: at centre `j` the kernel's arrangement of the layer at (b, j). -/
def row (c : Dev nD) (b : Fin 64) : FVec Ideal S1x1x64 .f32 := fun y =>
  kerOut (pts m c) (msk m c) (ctr m c) (shp m c) (ix2 b (⟨(y 2).val, (y 2).isLt⟩ : Fin 64))

/-- The body's output block at grid point `t` is row `t`. -/
theorem block_eq_row (c : Dev nD) (t : Fin cfg0.N) :
    Fold.blockAfter (F := Ideal) (iblk m c 0 t) (iblk m c 1 t) (iblk m c 2 t) (iblk m c 3 t) (iblk m c 4 t) k0_t1_loop.trips = row m c (batch t) := by
  refine ext_block _ _ fun j => ?_
  rw [BlockValue.blockAfter_apply]
  show _ = kerOut (pts m c) (msk m c) (ctr m c) (shp m c) (ix2 (batch t) j)
  exact Finset.sum_congr rfl fun p _ => weight_eq m c t j p

/-- Block `t` of `launched` is row `t`. -/
theorem launched_blk (c : Dev nD) (t : Fin cfg0.N) :
    ((cfg0.win 5).blk t).view.read (Elt Ideal) (launched m c) = row m c (batch t) := by
  obtain ⟨-, -, -, -, -, -, -, -, -, -, -, -, e0, e1, e2⟩ := idx_facts t
  funext y
  rw [View.read_apply, cast_eq]
  unfold launched row
  refine congrArg (kerOut (pts m c) (msk m c) (ctr m c) (shp m c)) ?_
  have hy0 : (y 0).val < 1 := (y 0).isLt
  refine congrArg₂ ix2 (Fin.ext ?_) (Fin.ext ?_)
  · show win0_5.index t (0 : Fin 3) * 1 + 1 * (y 0).val = t.val
    omega
  · show win0_5.index t (2 : Fin 3) * 64 + 1 * (y 2).val = (y 2).val
    omega

/-- WHAT GRID POINT `t` WRITES BACK is block `t` of `launched`. -/
theorem flushed_eq (c : Dev nD) (t : Fin cfg0.N) :
    (dats m 0 c).flushed 5 t = ((cfg0.win 5).blk t).view.read (Elt Ideal) (launched m c) := by
  show (cfg0.win 5).cut (grid0.coords t) ((dats m 0 c).after 5 t) = _
  rw [after0_5, outsAt_eq, block_eq_row, launched_blk]
  rfl

/-- An index of the result array is in grid point `t`'s block iff each coordinate is in the block's range on its axis. -/
theorem mem_blk (t : Fin cfg0.N) (i : S64x1x64.Idx) :
    i ∈ ((cfg0.win 5).blk t).view.set ↔ ∀ a : Fin 3, win0_5.index t a * S1x1x64.size a ≤ (i a).val
      ∧ (i a).val < win0_5.index t a * S1x1x64.size a + S1x1x64.size a := by
  show i ∈ ((View.whole main_v7).slice (win0_5.rect t)).set ↔ _
  rw [View.set_slice_whole, Rect.mem_set_unit]
  exact Iff.rfl

/-- THE ARRAY AFTER THE LAUNCH: the 64 rows cover it (row `i 0` is written back at grid point `i 0`). -/
theorem final (c : Dev nD) : (dats m 0 c).arrAt 5 cfg0.N = launched m c :=
  (dats m 0 c).arrAt_eq_of_cover 5 (launched m c) (fun t _ => flushed_eq m c t) fun i => by
    have h0 : (i 0).val < 64 := (i 0).isLt
    have h1 : (i 1).val < 1 := (i 1).isLt
    have h2 : (i 2).val < 64 := (i 2).isLt
    have hN : cfg0.N = 64 := N_0
    have ht : (i 0).val < cfg0.N := by omega
    refine ⟨⟨(i 0).val, ht⟩, flush0_5 _, ?_⟩
    rw [mem_blk]
    obtain ⟨-, -, -, -, -, -, -, -, -, -, -, -, e0, e1, e2⟩ := idx_facts ⟨(i 0).val, ht⟩
    have e0' : win0_5.index ⟨(i 0).val, ht⟩ (0 : Fin 3) = (i 0).val := e0
    intro a
    match a with
    | ⟨0, _⟩ =>
      show win0_5.index ⟨(i 0).val, ht⟩ (0 : Fin 3) * 1 ≤ (i 0).val ∧ (i 0).val < win0_5.index ⟨(i 0).val, ht⟩ (0 : Fin 3) * 1 + 1
      rw [e0']; omega
    | ⟨1, _⟩ =>
      show win0_5.index ⟨(i 0).val, ht⟩ (1 : Fin 3) * 1 ≤ (i 1).val ∧ (i 1).val < win0_5.index ⟨(i 0).val, ht⟩ (1 : Fin 3) * 1 + 1
      rw [e1]; omega
    | ⟨2, _⟩ =>
      show win0_5.index ⟨(i 0).val, ht⟩ (2 : Fin 3) * 64 ≤ (i 2).val ∧ (i 2).val < win0_5.index ⟨(i 0).val, ht⟩ (2 : Fin 3) * 64 + 64
      rw [e2]; omega

/-- THE PROGRAM'S RESULT: the host's reshape after the launch drops the unit axis of `launched`. -/
theorem tail_eq (c : Dev nD) :
    Pipeline.afterTail₀ cfgs (dats m) 0 (V0 m) [hostOps1] c main_v8 = kerOut (pts m c) (msk m c) (ctr m c) (shp m c) := by
  unfold Pipeline.afterTail₀
  show StableHlo.after hostOps1 _ (Proc.devRef .tc main_v8) = _
  after_results
  have hw : Pipeline.withArrays (cfgs 0).spec c (V0 m c) (fun w => (dats m 0 c).arrAt w (cfgs 0).N)
      (Proc.devRef .tc main_v7) = launched m c :=
    (Pipeline.withArrays_arr spec0 launch0.win.arr_inj c _ _ 5).trans (final m c)
  rw [hw]
  funext i
  obtain ⟨b, j, rfl⟩ : ∃ (b j : Fin 64), i = ix2 b j := ⟨i 0, i 1, eq_ix2 i⟩
  show shapeCast S64x64 (launched m c) shapeCasts_S64x1x64_S64x64 (ix2 b j) = _
  refine (shapeCast_apply _ _ (ix2 b j) (ix3 b (0 : Fin 1) j) ?_).trans ?_
  · rw [Shape.rowMajor_val_three, Shape.rowMajor_val_two]
    show (b.val * 1 + 0) * 64 + j.val = b.val * 64 + j.val
    omega
  · rfl

/-- THE RUN, READ: every weakly fair execution of the kernel's program ends with its result at the kernel's arrangement
    of the layer, the four arguments unchanged. -/
theorem run : θ_run defs (onTc (τ := τ) (main (F := Ideal))) ⟨m, fun _ => 0, ρ⟩ fun r => ∀ c : Dev nD,
      r.2.mem ((c.tc : Thread nD τ).loc main_v8) = kerOut (pts m c) (msk m c) (ctr m c) (shp m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v8 (Pipeline.mem_restRefs_of main_v8 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.Result

end
-- ==== Proof.RefValue.lean ====
/-
  The reference program's result is the layer's function of the arguments, in the reference's own arrangement.

  The reference broadcasts centres, points and sharpness to one four-axis array (batch × centre × point × coordinate),
  subtracts, multiplies, sums over the coordinate, negates, exponentiates, multiplies by the broadcast mask and sums over
  the points. Read one operation at a time at an index, each broadcast picks the evident entry of its argument, so the
  result at (batch `b`, centre `j`) is zero plus the sum over the points of the reference's weight.
-/
import proofs.«147939_j45200235823404_2_alg».proof.Proof.Gen.ReferenceIdeal.Read
import proofs.«147939_j45200235823404_2_alg».proof.Proof.Spec

noncomputable section

namespace Cert.ReferenceIdeal.RefValue

open Idealize.ShloMosaic Idealize.ShloMosaic.ValueIdx
open Cert.ReferenceIdeal Cert.ReferenceIdeal.Gen Cert.ReferenceIdeal.Read Cert.Rbf
open scoped BigOperators

theorem result_eq (x0 : (⟨S64x16384x2, .f32⟩ : BufTy).Contents (Elt Ideal)) (x1 : (⟨S64x16384, .f32⟩ : BufTy).Contents (Elt Ideal))
    (x2 x3 : (⟨S64x2, .f32⟩ : BufTy).Contents (Elt Ideal)) :
    val_main_v15 (F := Ideal) x0 x1 x2 x3 = refOut x0 x1 x2 x3 := by
  funext i
  obtain ⟨b, j, rfl⟩ : ∃ (b j : Fin 64), i = ix2 b j := ⟨i 0, i 1, eq_ix2 i⟩
  have hout : refOut x0 x1 x2 x3 (ix2 b j) = Z + ∑ p : Fin 16384, refWeight x0 x1 x2 x3 b j p := rfl
  rw [hout, val_main_v15_apply]
  refine congrArg₂ (· + ·) rfl (Finset.sum_congr rfl fun p _ => ?_)
  have e15 : idx_main_v15 (ix2 b j) p = ix3 b j p :=
    funext fun a => Fin.ext (by match a with | ⟨0, _⟩ => rfl | ⟨1, _⟩ => rfl | ⟨2, _⟩ => rfl)
  rw [e15, val_main_v14_apply, val_main_v11_apply, val_main_v10_apply, val_main_v13_apply, val_main_v12_apply,
    val_main_v9_apply]
  have e13 : idx_main_v12 (idx_main_v13 (ix3 b j p)) = ix2 b p :=
    funext fun a => Fin.ext (by match a with | ⟨0, _⟩ => rfl | ⟨1, _⟩ => rfl)
  rw [e13]
  unfold refWeight refExpo
  simp only [Ideal.mulf_def, Ideal.hostUnary_exp_def, Ideal.hostNegf_def, Ideal.negf_def]
  refine congrArg₂ (· * ·) (congrArg Ideal.exp (congrArg Neg.neg (congrArg₂ (· + ·) rfl
    (Finset.sum_congr rfl fun d _ => ?_)))) rfl
  have e9 : idx_main_v9 (ix3 b j p) d = ix4 b j p d :=
    funext fun a => Fin.ext (by match a with | ⟨0, _⟩ => rfl | ⟨1, _⟩ => rfl | ⟨2, _⟩ => rfl | ⟨3, _⟩ => rfl)
  rw [e9, val_main_v8_apply, val_main_v7_apply, val_main_v6_apply, val_main_v5_apply, val_main_v4_apply,
    val_main_v2_apply, val_main_v0_apply, val_main_v3_apply, val_main_v1_apply]
  have e5 : idx_main_v5 (idx_main_v6 (ix4 b j p d)) = ix2 j d :=
    funext fun a => Fin.ext (by match a with | ⟨0, _⟩ => rfl | ⟨1, _⟩ => rfl)
  have e0 : idx_main_v0 (idx_main_v2 (ix4 b j p d)) = ix2 j d :=
    funext fun a => Fin.ext (by match a with | ⟨0, _⟩ => rfl | ⟨1, _⟩ => rfl)
  have e1 : idx_main_v1 (idx_main_v3 (ix4 b j p d)) = ix3 b p d :=
    funext fun a => Fin.ext (by match a with | ⟨0, _⟩ => rfl | ⟨1, _⟩ => rfl | ⟨2, _⟩ => rfl)
  rw [e5, e0, e1]
  rfl

end Cert.ReferenceIdeal.RefValue

end
-- ==== Proof.Finite.lean ====
/-
  The precondition says the arguments are real.

  `finite_inputs` is the conjunction, over the four arguments, of "every entry has absolute value below +∞". On the
  extended reals an absolute value below +∞ means the entry is neither infinity: it is a real number. The layer's law
  needs that of the points, the centres and the sharpness.
-/
import proofs.«147939_j45200235823404_2_alg».proof.Pre_finite_inputs
import proofs.«147939_j45200235823404_2_alg».proof.Proof.Gen.Pre_finite_inputs
import proofs.«147939_j45200235823404_2_alg».proof.Proof.Spec
import Idealize.ShloMosaic.Lib.ReduceAll
import Idealize.ShloMosaic.Lib.Affine
import Idealize.ShloMosaic.Lib.ValueIdx

noncomputable section

namespace Cert.Rbf

open Idealize.ShloMosaic

/-- An extended real whose absolute value compares below the word of +∞ is a real number. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = (⊤ : EReal) := by simp [Ideal.ofBits, Ideal.ieee]
  rw [hinf] at h
  induction x using EReal.rec with
  | bot => simp [Ideal.cmp] at h
  | top => simp [Ideal.cmp] at h
  | coe r => exact ⟨r, rfl⟩

instance : Subsingleton Cert.Pre_finite_inputs.S_.Idx := ⟨fun a b => funext fun d => d.elim0⟩

open Cert.Pre_finite_inputs in
/-- Under the precondition the points, the centres and the sharpness are arrays of real numbers. -/
theorem allReal_of_pre [Cert.Pre_finite_inputs.Facts] (a0 : FVec Ideal S64x16384x2 .f32) (a1 : FVec Ideal S64x16384 .f32)
    (a2 a3 : FVec Ideal S64x2 .f32) (h : Cert.Pre_finite_inputs.fn (F := Ideal) a0 a1 a2 a3 = fun _ => 1#1) :
    AllReal a0 ∧ AllReal a2 ∧ AllReal a3 := by
  have h1 := congrFun h ValueIdx.ix0
  dsimp only [Cert.Pre_finite_inputs.fn, Cert.Pre_finite_inputs.fn_part1] at h1
  obtain ⟨h123, hR3⟩ := IntOp.andi_eq_one.mp h1
  obtain ⟨h12, hR2⟩ := IntOp.andi_eq_one.mp h123
  obtain ⟨hR0, hR1⟩ := IntOp.andi_eq_one.mp h12
  exact ⟨fun i => real_of_abs_lt_inf _ (Host.reduce_andi_all _ _ _ _ _ hR0 i),
    fun i => real_of_abs_lt_inf _ (Host.reduce_andi_all _ _ _ _ _ hR2 i),
    fun i => real_of_abs_lt_inf _ (Host.reduce_andi_all _ _ _ _ _ hR3 i)⟩

end Cert.Rbf

end
-- ==== Proof.lean ====
/-
  The pooled Gaussian radial basis layer: a fused kernel against its plain reference, on the extended reals.

  Both programs take points (64 batch elements × 16384 points × 2 coordinates), a mask (64 × 16384), and 64 centres with
  their sharpness (64 × 2 each), and return, for batch element `b` and centre `j`,
      Σ_p mask(b, p) · exp(−Σ_d sharpness(j, d) · (centre(j, d) − point(b, p, d))²).
  The reference computes this as written. The kernel expands the square — Σ_d (s·x² − 2·(s·c)·x) + Σ_d (s·c)·c, the last sum
  and the products s·c computed once on the host — and walks the points of one batch element per grid step in eight
  chunks of 2048, adding each chunk's sum into a block it first fills with zeros.

  The two agree because (i) the expansion is an identity of REAL numbers — it distributes a product over a difference,
  so it needs the precondition: points, centres and sharpness finite — in exactly the association each side uses;
  (ii) subtracting from zero is negating; (iii) a sum over the points in any grouping is the same sum, and an accumulator
  started at zero ends at the sum of what was added. The mask only multiplies the exponential, so it may be anything.

  The frames are the generated ones (the reference's is its run with the result dropped); the idealized kernel is the
  kernel's own text read on the extended reals, so there is nothing to preserve. What is proved in the modules imported
  here: the body's output block as a fold over its chunks; the fold, the host operations and the staged blocks read at an
  index; the launch's result array from the 64 write-backs; the reference read one operation at a time; the law.
-/
import proofs.«147939_j45200235823404_2_alg».proof.Defs
import proofs.«147939_j45200235823404_2_alg».proof.Proof.Gen.Kernel
import proofs.«147939_j45200235823404_2_alg».proof.Proof.Gen.Kernel.Skeleton
import proofs.«147939_j45200235823404_2_alg».proof.Proof.Gen.Kernel.Loops
import proofs.«147939_j45200235823404_2_alg».proof.Proof.Gen.Kernel.Launch
import proofs.«147939_j45200235823404_2_alg».proof.Proof.Gen.Kernel.Points
import proofs.«147939_j45200235823404_2_alg».proof.Proof.Gen.Kernel.Frame
import proofs.«147939_j45200235823404_2_alg».proof.Proof.Gen.KernelIdeal
import proofs.«147939_j45200235823404_2_alg».proof.Proof.Gen.KernelIdeal.Skeleton
import proofs.«147939_j45200235823404_2_alg».proof.Proof.Gen.KernelIdeal.Loops
import proofs.«147939_j45200235823404_2_alg».proof.Proof.Gen.KernelIdeal.Launch
import proofs.«147939_j45200235823404_2_alg».proof.Proof.Gen.KernelIdeal.Points
import proofs.«147939_j45200235823404_2_alg».proof.Proof.Gen.KernelIdeal.Frame
import proofs.«147939_j45200235823404_2_alg».proof.Proof.Gen.ReferenceIdeal
import proofs.«147939_j45200235823404_2_alg».proof.Proof.Gen.ReferenceIdeal.Run
import proofs.«147939_j45200235823404_2_alg».proof.Proof.Gen.ReferenceIdeal.Read
import proofs.«147939_j45200235823404_2_alg».proof.Proof.Gen.Pre_finite_inputs
import proofs.«147939_j45200235823404_2_alg».proof.Proof.Result
import proofs.«147939_j45200235823404_2_alg».proof.Proof.RefValue
import proofs.«147939_j45200235823404_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with the layer's function of arguments that agree: the kernel's at its expanded arrangement, the
    reference's at the squared-distance arrangement, and on finite points, centres and sharpness these are one function. -/
theorem algebraic : Cert.algebraic_KernelIdeal_ReferenceIdeal := by
  intro m ρ m' ρ' hpre hagree
  refine ⟨fun c => Cert.Rbf.kerOut (Cert.KernelIdeal.Blocks.pts m c) (Cert.KernelIdeal.Blocks.msk m c)
      (Cert.KernelIdeal.Blocks.ctr m c) (Cert.KernelIdeal.Blocks.shp m c), Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h2, h3⟩ := Cert.Rbf.allReal_of_pre _ _ _ _ (hpre c)
  rw [Cert.ReferenceIdeal.Read.val_main_v15_eq, Cert.ReferenceIdeal.RefValue.result_eq, (hagree c).1, (hagree c).2.1,
    (hagree c).2.2.1, (hagree c).2.2.2]
  exact (Cert.Rbf.kerOut_eq_refOut _ _ _ _ h0 h2 h3).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
